-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S4194304x16 : Shape := ⟨2, ![4194304, 16]⟩
abbrev S8192x3 : Shape := ⟨2, ![8192, 3]⟩
abbrev S8192x16 : Shape := ⟨2, ![8192, 16]⟩
abbrev S256x3 : Shape := ⟨2, ![256, 3]⟩
abbrev S256x1 : Shape := ⟨2, ![256, 1]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S4194304x16, .f32⟩
  | .local _ .vmem, ⟨0, _⟩ => ⟨S8192x3, .f32⟩
  | .local _ .vmem, ⟨1, _⟩ => ⟨S8192x3, .f32⟩
  | .local _ .vmem, ⟨2, _⟩ => ⟨S8192x16, .f32⟩
  | .local _ .vmem, ⟨3, _⟩ => ⟨S8192x16, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  v1
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let v91 : Index := Scalar.indexCast v2
  let c0_28 : Index := 0#32
  ![v91.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S256x3 : 0 < S256x3.numel
  slices_S256x3_o0_0_S256x1 : S256x3.Slices ![0, 0] S256x1
  slices_S256x3_o0_1_S256x1 : S256x3.Slices ![0, 1] S256x1
  slices_S256x3_o0_2_S256x1 : S256x3.Slices ![0, 2] S256x1
  concatenates_S256x1_S256x1_S256x1_S256x1_S256x1_S256x1_S256x1_S256x1_S256x1_S256x1_S256x1_S256x1_S256x1_S256x1_S256x1_S256x1_S256x16_d1 : Shape.Concatenates [S256x1, S256x1, S256x1, S256x1, S256x1, S256x1, S256x1, S256x1, S256x1, S256x1, S256x1, S256x1, S256x1, S256x1, S256x1, S256x1] S256x16 1
  h_S256x16 : 0 < S256x16.numel
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S256x3.size a ≤ S8192x3.size a
  k0_off2_inb : ∀ k0_t1 : Fin k0_t1_loop.trips, ∀ a, (k0_off2 k0_t1) a + S256x16.size a ≤ S8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S4194304x3.size a
  hwx0_0 : ∀ i : grid0.Coords, EltTy.bits .f32 = 32 ∨ (Rect.block (s := S4194304x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S4194304x16.size a
  hwx0_1 : ∀ i : grid0.Coords, EltTy.bits .f32 = 32 ∨ (Rect.block (s := S4194304x16) S8192x16.size (cc0_transform_1 i) (hinb0_1 i)).WholeWords (EltTy.packing .f32)

variable [Facts₀]

abbrev win0_0 : Pipeline.Window sig grid0 :=
  Pipeline.Window.ofSpec (Memref.whole main_arg0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S_ : Shape := ⟨0, ![]⟩
abbrev S4194304 : Shape := ⟨1, ![4194304]⟩
abbrev S4194304x1 : Shape := ⟨2, ![4194304, 1]⟩
abbrev S4194304x16 : Shape := ⟨2, ![4194304, 16]⟩

abbrev nBuf : Space → Nat
  | .hbm => 129
  | .vmem => 0
  | .smem => 0
  | _ => 0

abbrev hbmTy0_0 (i : Nat) : BufTy := match i % 128 with
  | 0 => ⟨S4194304x3, .f32⟩
  | 1 => ⟨S4194304x3, .f32⟩
  | 2 => ⟨S_, .f32⟩
  | 3 => ⟨S4194304, .f32⟩
  | 4 => ⟨S4194304x1, .f32⟩
  | 5 => ⟨S4194304x1, .f32⟩
  | 6 => ⟨S_, .f32⟩
  | 7 => ⟨S4194304x1, .f32⟩
  | 8 => ⟨S4194304x1, .f32⟩
  | 9 => ⟨S4194304x3, .f32⟩
  | 10 => ⟨S4194304x3, .f32⟩
  | 11 => ⟨S4194304x1, .f32⟩
  | 12 => ⟨S4194304, .f32⟩
  | 13 => ⟨S4194304x1, .f32⟩
  | 14 => ⟨S4194304, .f32⟩
  | 15 => ⟨S4194304x1, .f32⟩
  | 16 => ⟨S4194304, .f32⟩
  | 17 => ⟨S4194304, .f32⟩
  | 18 => ⟨S4194304, .f32⟩
  | 19 => ⟨S4194304, .f32⟩
  | 20 => ⟨S_, .f32⟩
  | 21 => ⟨S4194304, .f32⟩
  | 22 => ⟨S_, .f32⟩
  | 23 => ⟨S4194304, .f32⟩
  | 24 => ⟨S4194304, .f32⟩
  | 25 => ⟨S_, .f32⟩
  | 26 => ⟨S4194304, .f32⟩
  | 27 => ⟨S4194304, .f32⟩
  | 28 => ⟨S_, .f32⟩
  | 29 => ⟨S4194304, .f32⟩
  | 30 => ⟨S4194304, .f32⟩
  | 31 => ⟨S_, .f32⟩
  | 32 => ⟨S4194304, .f32⟩
  | 33 => ⟨S4194304, .f32⟩
  | 34 => ⟨S4194304, .f32⟩
  | 35 => ⟨S_, .f32⟩
  | 36 => ⟨S4194304, .f32⟩
  | 37 => ⟨S4194304, .f32⟩
  | 38 => ⟨S4194304, .f32⟩
  | 39 => ⟨S_, .f32⟩
  | 40 => ⟨S4194304, .f32⟩
  | 41 => ⟨S4194304, .f32⟩
  | 42 => ⟨S_, .f32⟩
  | 43 => ⟨S4194304, .f32⟩
  | 44 => ⟨S4194304, .f32⟩
  | 45 => ⟨S_, .f32⟩
  | 46 => ⟨S4194304, .f32⟩
  | 47 => ⟨S4194304, .f32⟩
  | 48 => ⟨S_, .f32⟩
  | 49 => ⟨S4194304, .f32⟩
  | 50 => ⟨S4194304, .f32⟩
  | 51 => ⟨S4194304, .f32⟩
  | 52 => ⟨S4194304, .f32⟩
  | 53 => ⟨S_, .f32⟩
  | 54 => ⟨S4194304, .f32⟩
  | 55 => ⟨S4194304, .f32⟩
  | 56 => ⟨S_, .f32⟩
  | 57 => ⟨S4194304, .f32⟩
  | 58 => ⟨S4194304, .f32⟩
  | 59 => ⟨S_, .f32⟩
  | 60 => ⟨S4194304, .f32⟩
  | 61 => ⟨S4194304, .f32⟩
  | 62 => ⟨S4194304, .f32⟩
  | 63 => ⟨S4194304, .f32⟩
  | 64 => ⟨S_, .f32⟩
  | 65 => ⟨S4194304, .f32⟩
  | 66 => ⟨S4194304, .f32⟩
  | 67 => ⟨S4194304, .f32⟩
  | 68 => ⟨S4194304, .f32⟩
  | 69 => ⟨S_, .f32⟩
  | 70 => ⟨S4194304, .f32⟩
  | 71 => ⟨S4194304, .f32⟩
  | 72 => ⟨S_, .f32⟩
  | 73 => ⟨S4194304, .f32⟩
  | 74 => ⟨S4194304, .f32⟩
  | 75 => ⟨S_, .f32⟩
  | 76 => ⟨S4194304, .f32⟩
  | 77 => ⟨S4194304, .f32⟩
  | 78 => ⟨S4194304, .f32⟩
  | 79 => ⟨S_, .f32⟩
  | 80 => ⟨S4194304, .f32⟩
  | 81 => ⟨S4194304, .f32⟩
  | 82 => ⟨S_, .f32⟩
  | 83 => ⟨S4194304, .f32⟩
  | 84 => ⟨S4194304, .f32⟩
  | 85 => ⟨S_, .f32⟩
  | 86 => ⟨S4194304, .f32⟩
  | 87 => ⟨S4194304, .f32⟩
  | 88 => ⟨S4194304, .f32⟩
  | 89 => ⟨S_, .f32⟩
  | 90 => ⟨S4194304, .f32⟩
  | 91 => ⟨S4194304, .f32⟩
  | 92 => ⟨S_, .f32⟩
  | 93 => ⟨S4194304, .f32⟩
  | 94 => ⟨S4194304, .f32⟩
  | 95 => ⟨S_, .f32⟩
  | 96 => ⟨S4194304, .f32⟩
  | 97 => ⟨S4194304, .f32⟩
  | 98 => ⟨S4194304, .f32⟩
  | 99 => ⟨S_, .f32⟩
  | 100 => ⟨S4194304, .f32⟩
  | 101 => ⟨S4194304, .f32⟩
  | 102 => ⟨S4194304, .f32⟩
  | 103 => ⟨S4194304, .f32⟩
  | 104 => ⟨S_, .f32⟩
  | 105 => ⟨S4194304, .f32⟩
  | 106 => ⟨S4194304, .f32⟩
  | 107 => ⟨S_, .f32⟩
  | 108 => ⟨S4194304, .f32⟩
  | 109 => ⟨S4194304, .f32⟩
  | 110 => ⟨S4194304, .f32⟩
  | 111 => ⟨S4194304, .f32⟩
  | 112 => ⟨S4194304x1, .f32⟩
  | 113 => ⟨S4194304x1, .f32⟩
  | 114 => ⟨S4194304x1, .f32⟩
  | 115 => ⟨S4194304x1, .f32⟩
  | 116 => ⟨S4194304x1, .f32⟩
  | 117 => ⟨S4194304x1, .f32⟩
  | 118 => ⟨S4194304x1, .f32⟩
  | 119 => ⟨S4194304x1, .f32⟩
  | 120 => ⟨S4194304x1, .f32⟩
  | 121 => ⟨S4194304x1, .f32⟩
  | 122 => ⟨S4194304x1, .f32⟩
  | 123 => ⟨S4194304x1, .f32⟩
  | 124 => ⟨S4194304x1, .f32⟩
  | 125 => ⟨S4194304x1, .f32⟩
  | 126 => ⟨S4194304x1, .f32⟩
  | 127 => ⟨S4194304x1, .f32⟩
  | _ => ⟨S4194304x3, .f32⟩

abbrev hbmTy0_1 (i : Nat) : BufTy := match i % 128 with
  | 0 => ⟨S4194304x16, .f32⟩
  | _ => ⟨S4194304x3, .f32⟩

abbrev hbmTy (i : Nat) : BufTy := match i / 128 with
  | 0 => hbmTy0_0 i
  | 1 => hbmTy0_1 i
  | _ => ⟨S4194304x3, .f32⟩

abbrev bufTy : (tb : Table) → Fin (tcTables nBuf tb) → BufTy
  | .hbm, ⟨i, _⟩ => hbmTy i
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_14 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_15 : Ref sig .tc := ⟨.hbm, 69, rfl⟩
abbrev main_v52 : Ref sig .tc := ⟨.hbm, 70, rfl⟩
abbrev main_v53 : Ref sig .tc := ⟨.hbm, 71, rfl⟩
abbrev main_cst_16 : Ref sig .tc := ⟨.hbm, 72, rfl⟩
abbrev main_v54 : Ref sig .tc := ⟨.hbm, 73, rfl⟩
abbrev main_v55 : Ref sig .tc := ⟨.hbm, 74, rfl⟩
abbrev main_cst_17 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_18 : Ref sig .tc := ⟨.hbm, 79, rfl⟩
abbrev main_v59 : Ref sig .tc := ⟨.hbm, 80, rfl⟩
abbrev main_v60 : Ref sig .tc := ⟨.hbm, 81, rfl⟩
abbrev main_cst_19 : Ref sig .tc := ⟨.hbm, 82, rfl⟩
abbrev main_v61 : Ref sig .tc := ⟨.hbm, 83, rfl⟩
abbrev main_v62 : Ref sig .tc := ⟨.hbm, 84, rfl⟩
abbrev main_cst_20 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_21 : Ref sig .tc := ⟨.hbm, 89, rfl⟩
abbrev main_v66 : Ref sig .tc := ⟨.hbm, 90, rfl⟩
abbrev main_v67 : Ref sig .tc := ⟨.hbm, 91, rfl⟩
abbrev main_cst_22 : Ref sig .tc := ⟨.hbm, 92, rfl⟩
abbrev main_v68 : Ref sig .tc := ⟨.hbm, 93, rfl⟩
abbrev main_v69 : Ref sig .tc := ⟨.hbm, 94, rfl⟩
abbrev main_cst_23 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_24 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_25 : Ref sig .tc := ⟨.hbm, 104, rfl⟩
abbrev main_v77 : Ref sig .tc := ⟨.hbm, 105, rfl⟩
abbrev main_v78 : Ref sig .tc := ⟨.hbm, 106, rfl⟩
abbrev main_cst_26 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]

class Facts₀ : Prop where
  reducesTo_S4194304x3_S4194304_d1 : S4194304x3.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S4194304x1_S4194304x3_0_1 : S4194304x1.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1

variable [Facts₀]

class Facts : Prop extends Facts₀ where

variable [Facts]
-- ==== Proof.Harmonics.lean ====
/-
  The real spherical harmonics of degree 0, 1, 2 and 3 of the direction of a 3-vector, on the extended reals.

  A row (a, b, c) is first normalised: each entry is divided by the length √(a² + b² + c²), clamped below at a
  small positive constant so that the divisor is never zero. The sixteen harmonics are then polynomials in the
  normalised entries (u, v, w) = (a, b, c) / length, with float32 coefficients kept as the words they are.
  `table X` is the whole result: entry (r, q) is harmonic q of row r of X.

  Two ways of normalising meet here: multiplying an entry by the reciprocal 1 / length, and dividing the entry by
  the length. They agree because the length, being at least the positive clamp, is not zero (`mul_recip`): no
  finiteness of the entries is needed.
-/
import Idealize.ShloMosaic.PureOps.Ideal
import Idealize.ShloMosaic.PureOps.Ideal.Laws
import Idealize.ShloMosaic.Lib.ValueIdx

noncomputable section

namespace SphHarm

open Idealize.ShloMosaic Idealize.ShloMosaic.ValueIdx

local notation "W" => Ideal.ofBits FTy.f32

/-- The clamp under the length: the float32 nearest 1e-12, a positive number. -/
def floor : EReal := W 0x2B8CBCCC#32

/-- The length of (a, b, c), clamped below at `floor`; the squares are added in the order written. -/
def len (a b c : EReal) : EReal := max (Ideal.sqrt (a * a + b * b + c * c)) floor

/-- The sixteen harmonics at a point (u, v, w): degree 0; degree 1 in the order (v, w, u); the five of degree 2;
    the seven of degree 3. -/
def harm (u v w : EReal) : Fin 16 → EReal :=
  ![W 0x3F800000#32,
    W 0x3FDDB3D7#32 * v,
    W 0x3FDDB3D7#32 * w,
    W 0x3FDDB3D7#32 * u,
    W 0x4077DEF6#32 * u * v,
    W 0x4077DEF6#32 * v * w,
    W 0x3F8F1BBD#32 * (W 0x40400000#32 * (w * w) - W 0x3F800000#32),
    W 0x4077DEF6#32 * u * w,
    W 0x3FF7DEF6#32 * (u * u - v * v),
    W 0x4005DD98#32 * v * (W 0x40400000#32 * (u * u) - v * v),
    W 0x4123F383#32 * u * v * w,
    W 0x3FCF623A#32 * v * (W 0x40A00000#32 * (w * w) - W 0x3F800000#32),
    W 0x3FA953FD#32 * w * (W 0x40A00000#32 * (w * w) - W 0x40400000#32),
    W 0x3FCF623A#32 * u * (W 0x40A00000#32 * (w * w) - W 0x3F800000#32),
    W 0x40A3F383#32 * w * (u * u - v * v),
    W 0x4005DD98#32 * u * (u * u - W 0x40400000#32 * (v * v))]

/-- The sixteen harmonics of the direction of the row (a, b, c). -/
def row (a b c : EReal) : Fin 16 → EReal :=
  harm (Ideal.div a (len a b c)) (Ideal.div b (len a b c)) (Ideal.div c (len a b c))

/-- The whole result: entry (r, q) is harmonic q of row r. -/
def table (X : (⟨2, ![4194304, 3]⟩ : Shape).Idx → EReal) : (⟨2, ![4194304, 16]⟩ : Shape).Idx → EReal :=
  fun i => row (X (ix2 ⟨(i 0).val, idx2_lt0 i⟩ (0 : Fin 3))) (X (ix2 ⟨(i 0).val, idx2_lt0 i⟩ (1 : Fin 3)))
    (X (ix2 ⟨(i 0).val, idx2_lt0 i⟩ (2 : Fin 3))) ⟨(i 1).val, idx2_lt1 i⟩

theorem table_apply (X : (⟨2, ![4194304, 3]⟩ : Shape).Idx → EReal) (r : Fin 4194304) (q : Fin 16) :
    table X (ix2 r q) = row (X (ix2 r (0 : Fin 3))) (X (ix2 r (1 : Fin 3))) (X (ix2 r (2 : Fin 3))) q := rfl

/-- The sixteen harmonics listed one by one are the harmonics. -/
theorem harm_tab (u v w : EReal) (q : Fin 16) :
    (![harm u v w 0, harm u v w 1, harm u v w 2, harm u v w 3, harm u v w 4, harm u v w 5, harm u v w 6, harm u v w 7, harm u v w 8, harm u v w 9, harm u v w 10, harm u v w 11, harm u v w 12, harm u v w 13, harm u v w 14, harm u v w 15] : Fin 16 → EReal) q = harm u v w q := by
  fin_cases q <;> rfl

/-- The float32 word of 1.0 is the number one. -/
theorem one_word : W 0x3F800000#32 = 1 := by
  simp [Ideal.ofBits, Ideal.ieee]
  rw [← EReal.coe_mul, ← EReal.coe_one]
  congr 1
  norm_num

/-- The clamp is positive, -/
theorem floor_pos : (0 : EReal) < floor := by
  unfold floor
  simp [Ideal.ofBits, Ideal.ieee]
  rw [← EReal.coe_mul, ← EReal.coe_zero, EReal.coe_lt_coe_iff]
  positivity

/-- so the clamped length is never zero. -/
theorem len_ne_zero (a b c : EReal) : len a b c ≠ 0 :=
  (lt_of_lt_of_le floor_pos (le_max_right _ _)).ne'

/-- An entry times the reciprocal of a nonzero divisor is the entry divided by it: both are `a · d⁻¹`. -/
theorem mul_recip (a d : EReal) (hd : d ≠ 0) : a * Ideal.div (W 0x3F800000#32) d = Ideal.div a d := by
  simp only [Ideal.div, if_neg hd, one_word, one_mul]

end SphHarm

end
-- ==== Proof.LibColumnBlocks.lean ====
/-
  Index lemmas for arrays handled column by column.

  `slice_col_apply`: column `c` of an R×C array, cut out as an R×1 slice, holds at row `r` the array's entry (r, c).
  `concat16_cols_apply`: sixteen R×1 columns laid side by side into an R×16 array hold at (r, q) column `q`'s entry
  at row `r`; `concat16_vals_apply` is the same with the columns named one by one.
-/
import Idealize.ShloMosaic.Lib.Pipeline.Value
import Idealize.ShloMosaic.Lib.ValueIdx

noncomputable section

namespace ColumnBlocks

open Idealize.ShloMosaic Idealize.ShloMosaic.ValueIdx

variable {α : Type}

/-- Column `c` of an R×C array as an R×1 slice, at row `r`: the array at (r, c). -/
theorem slice_col_apply {R C : Nat} (x : (⟨2, ![R, C]⟩ : Shape).Idx → α) (c : Nat) (hc : c < C)
    (h : (⟨2, ![R, C]⟩ : Shape).Slices ![0, c] ⟨2, ![R, 1]⟩) (r : Fin R) :
    extractStridedSlice ⟨2, ![R, 1]⟩ ![0, c] x h (ix2 r (0 : Fin 1)) = x (ix2 r ⟨c, hc⟩) :=
  extractStridedSlice_apply ![0, c] x h (ix2 r (0 : Fin 1)) (ix2 r ⟨c, hc⟩) fun a => by
    match a with
    | ⟨0, _⟩ => show r.val = 0 + r.val; omega
    | ⟨1, _⟩ => show c = c + 0; rfl

/-- Sixteen R×1 columns side by side, read at (r, q): column `q` at row `r`. -/
theorem concat16_cols_apply {R : Nat} (col : Fin 16 → ((⟨2, ![R, 1]⟩ : Shape).Idx → α))
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 16]⟩ (1 : Fin 2))
    (r : Fin R) (q : Fin 16) :
    concatenate ⟨2, ![R, 16]⟩ (1 : Fin 2)
      [⟨(⟨2, ![R, 1]⟩ : Shape), col 0⟩, ⟨(⟨2, ![R, 1]⟩ : Shape), col 1⟩, ⟨(⟨2, ![R, 1]⟩ : Shape), col 2⟩, ⟨(⟨2, ![R, 1]⟩ : Shape), col 3⟩, ⟨(⟨2, ![R, 1]⟩ : Shape), col 4⟩, ⟨(⟨2, ![R, 1]⟩ : Shape), col 5⟩, ⟨(⟨2, ![R, 1]⟩ : Shape), col 6⟩, ⟨(⟨2, ![R, 1]⟩ : Shape), col 7⟩, ⟨(⟨2, ![R, 1]⟩ : Shape), col 8⟩, ⟨(⟨2, ![R, 1]⟩ : Shape), col 9⟩, ⟨(⟨2, ![R, 1]⟩ : Shape), col 10⟩, ⟨(⟨2, ![R, 1]⟩ : Shape), col 11⟩, ⟨(⟨2, ![R, 1]⟩ : Shape), col 12⟩, ⟨(⟨2, ![R, 1]⟩ : Shape), col 13⟩, ⟨(⟨2, ![R, 1]⟩ : Shape), col 14⟩, ⟨(⟨2, ![R, 1]⟩ : Shape), col 15⟩] h (ix2 r q)
      = col q (ix2 r (0 : Fin 1)) :=
  concatenate_ofFn_unit_apply (t := ⟨2, ![R, 16]⟩) (s₁ := ⟨2, ![R, 1]⟩) (1 : Fin 2) col h rfl rfl (ix2 r q) q rfl
    (ix2 r (0 : Fin 1)) fun b hb => by
      match b with
      | ⟨0, _⟩ => rfl
      | ⟨1, _⟩ => exact absurd rfl hb

/-- The same with the sixteen columns named one by one: the entry at (r, q) is the `q`-th of the sixteen values the
    columns hold at row `r`. -/
theorem concat16_vals_apply {R : Nat} (c0 c1 c2 c3 c4 c5 c6 c7 c8 c9 c10 c11 c12 c13 c14 c15 : (⟨2, ![R, 1]⟩ : Shape).Idx → α)
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 16]⟩ (1 : Fin 2))
    (r : Fin R) (q : Fin 16) :
    concatenate ⟨2, ![R, 16]⟩ (1 : Fin 2)
      [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩, ⟨(⟨2, ![R, 1]⟩ : Shape), c4⟩, ⟨(⟨2, ![R, 1]⟩ : Shape), c5⟩, ⟨(⟨2, ![R, 1]⟩ : Shape), c6⟩, ⟨(⟨2, ![R, 1]⟩ : Shape), c7⟩, ⟨(⟨2, ![R, 1]⟩ : Shape), c8⟩, ⟨(⟨2, ![R, 1]⟩ : Shape), c9⟩, ⟨(⟨2, ![R, 1]⟩ : Shape), c10⟩, ⟨(⟨2, ![R, 1]⟩ : Shape), c11⟩, ⟨(⟨2, ![R, 1]⟩ : Shape), c12⟩, ⟨(⟨2, ![R, 1]⟩ : Shape), c13⟩, ⟨(⟨2, ![R, 1]⟩ : Shape), c14⟩, ⟨(⟨2, ![R, 1]⟩ : Shape), c15⟩] h (ix2 r q)
      = (![c0 (ix2 r (0 : Fin 1)), c1 (ix2 r (0 : Fin 1)), c2 (ix2 r (0 : Fin 1)), c3 (ix2 r (0 : Fin 1)), c4 (ix2 r (0 : Fin 1)), c5 (ix2 r (0 : Fin 1)), c6 (ix2 r (0 : Fin 1)), c7 (ix2 r (0 : Fin 1)), c8 (ix2 r (0 : Fin 1)), c9 (ix2 r (0 : Fin 1)), c10 (ix2 r (0 : Fin 1)), c11 (ix2 r (0 : Fin 1)), c12 (ix2 r (0 : Fin 1)), c13 (ix2 r (0 : Fin 1)), c14 (ix2 r (0 : Fin 1)), c15 (ix2 r (0 : Fin 1))] : Fin 16 → α) q := by
  refine (concat16_cols_apply ![c0, c1, c2, c3, c4, c5, c6, c7, c8, c9, c10, c11, c12, c13, c14, c15] h r q).trans ?_
  fin_cases q <;> rfl

end ColumnBlocks

end
-- ==== Proof.KernelChunk.lean ====
/-
  What one trip of the kernel's loop stores, read at an index.

  A trip loads 256 rows of the 8192×3 block and stores 256 rows of the 8192×16 block: sixteen 256×1 columns side by
  side (`chunk`). Each column is a pointwise polynomial of the three columns of the loaded rows, after those have
  been multiplied by the reciprocal of the clamped row length. Read at row `p` and column `q` the stored value is
  harmonic `q` of the direction of the loaded row `p` (`chunk_apply`): the product with the reciprocal is the
  quotient by the length because the clamped length is never zero.
-/
import proofs.«171671_j1151051235358_2_alg».proof.Proof.Gen.KernelIdeal.Skeleton
import proofs.«171671_j1151051235358_2_alg».proof.Proof.Harmonics
import proofs.«171671_j1151051235358_2_alg».proof.Proof.LibColumnBlocks
import Idealize.ShloMosaic.Lib.ValueIdx

noncomputable section

namespace Cert.KernelIdeal.Harm

open Cert.KernelIdeal Cert.KernelIdeal.Gen Idealize.ShloMosaic Idealize.ShloMosaic.ValueIdx

variable {F : FTy → Type} [FloatOps F]

/-- The sixteen columns a trip computes from its 256 loaded rows. -/
def cols (v4 : Vec F S256x3 .f32) : Fin 16 → FVec F S256x1 .f32 :=
  ![k0_pay12 (F := F),
    k0_pay13 v4,
    k0_pay14 v4,
    k0_pay15 v4,
    k0_pay16 v4,
    k0_pay17 v4,
    k0_pay18 v4,
    k0_pay19 v4,
    k0_pay20 (k0_pay9 v4) (k0_pay10 v4),
    k0_pay21 (k0_pay7 v4) (k0_pay9 v4) (k0_pay10 v4),
    k0_pay22 (k0_pay6 v4) (k0_pay7 v4) (k0_pay8 v4),
    k0_pay23 (k0_pay7 v4) (k0_pay11 v4),
    k0_pay24 (k0_pay8 v4) (k0_pay11 v4),
    k0_pay25 (k0_pay6 v4) (k0_pay11 v4),
    k0_pay26 (k0_pay8 v4) (k0_pay9 v4) (k0_pay10 v4),
    k0_pay27 (k0_pay6 v4) (k0_pay9 v4) (k0_pay10 v4)]

/-- What a trip stores: the sixteen columns side by side. -/
def chunk (v4 : Vec F S256x3 .f32) : FVec F S256x16 .f32 :=
  k0_pay1 (k0_pay12 (F := F))
    (k0_pay13 v4)
    (k0_pay14 v4)
    (k0_pay15 v4)
    (k0_pay16 v4)
    (k0_pay17 v4)
    (k0_pay18 v4)
    (k0_pay19 v4)
    (k0_pay20 (k0_pay9 v4) (k0_pay10 v4))
    (k0_pay21 (k0_pay7 v4) (k0_pay9 v4) (k0_pay10 v4))
    (k0_pay22 (k0_pay6 v4) (k0_pay7 v4) (k0_pay8 v4))
    (k0_pay23 (k0_pay7 v4) (k0_pay11 v4))
    (k0_pay24 (k0_pay8 v4) (k0_pay11 v4))
    (k0_pay25 (k0_pay6 v4) (k0_pay11 v4))
    (k0_pay26 (k0_pay8 v4) (k0_pay9 v4) (k0_pay10 v4))
    (k0_pay27 (k0_pay6 v4) (k0_pay9 v4) (k0_pay10 v4))

theorem chunk_eq (v4 : Vec F S256x3 .f32) :
    chunk v4 = concatenate S256x16 (1 : Fin 2)
      [⟨S256x1, cols v4 0⟩, ⟨S256x1, cols v4 1⟩, ⟨S256x1, cols v4 2⟩, ⟨S256x1, cols v4 3⟩, ⟨S256x1, cols v4 4⟩, ⟨S256x1, cols v4 5⟩, ⟨S256x1, cols v4 6⟩, ⟨S256x1, cols v4 7⟩, ⟨S256x1, cols v4 8⟩, ⟨S256x1, cols v4 9⟩, ⟨S256x1, cols v4 10⟩, ⟨S256x1, cols v4 11⟩, ⟨S256x1, cols v4 12⟩, ⟨S256x1, cols v4 13⟩, ⟨S256x1, cols v4 14⟩, ⟨S256x1, cols v4 15⟩]
      concatenates_S256x1_S256x1_S256x1_S256x1_S256x1_S256x1_S256x1_S256x1_S256x1_S256x1_S256x1_S256x1_S256x1_S256x1_S256x1_S256x1_S256x16_d1 := rfl

section AtIdeal

variable (v4 : Vec Ideal S256x3 .f32) (p : Fin 256)

/-- The three columns of the loaded rows, at row `p`. -/
theorem x_at : k0_pay2 v4 (ix2 p (0 : Fin 1)) = v4 (ix2 p (0 : Fin 3)) :=
  ColumnBlocks.slice_col_apply v4 0 (by decide) slices_S256x3_o0_0_S256x1 p
theorem y_at : k0_pay3 v4 (ix2 p (0 : Fin 1)) = v4 (ix2 p (1 : Fin 3)) :=
  ColumnBlocks.slice_col_apply v4 1 (by decide) slices_S256x3_o0_1_S256x1 p
theorem z_at : k0_pay4 v4 (ix2 p (0 : Fin 1)) = v4 (ix2 p (2 : Fin 3)) :=
  ColumnBlocks.slice_col_apply v4 2 (by decide) slices_S256x3_o0_2_S256x1 p

/-- The reciprocal of the clamped length of row `p`. -/
theorem recip_at : k0_pay5 v4 (ix2 p (0 : Fin 1))
    = Ideal.div (Ideal.ofBits .f32 0x3F800000#32)
        (SphHarm.len (v4 (ix2 p (0 : Fin 3))) (v4 (ix2 p (1 : Fin 3))) (v4 (ix2 p (2 : Fin 3)))) := by
  show Ideal.div (Ideal.ofBits .f32 0x3F800000#32)
      (max (Ideal.sqrt (k0_pay2 v4 (ix2 p (0 : Fin 1)) * k0_pay2 v4 (ix2 p (0 : Fin 1))
        + k0_pay3 v4 (ix2 p (0 : Fin 1)) * k0_pay3 v4 (ix2 p (0 : Fin 1))
        + k0_pay4 v4 (ix2 p (0 : Fin 1)) * k0_pay4 v4 (ix2 p (0 : Fin 1)))) (Ideal.ofBits .f32 0x2B8CBCCC#32)) = _
  rw [x_at, y_at, z_at]; rfl

/-- The normalised entries of row `p`: each entry times the reciprocal is the entry over the length. -/
theorem u_at : k0_pay6 v4 (ix2 p (0 : Fin 1))
    = Ideal.div (v4 (ix2 p (0 : Fin 3))) (SphHarm.len (v4 (ix2 p (0 : Fin 3))) (v4 (ix2 p (1 : Fin 3))) (v4 (ix2 p (2 : Fin 3)))) := by
  show k0_pay2 v4 (ix2 p (0 : Fin 1)) * k0_pay5 v4 (ix2 p (0 : Fin 1)) = _
  rw [x_at, recip_at, SphHarm.mul_recip _ _ (SphHarm.len_ne_zero _ _ _)]
theorem v_at : k0_pay7 v4 (ix2 p (0 : Fin 1))
    = Ideal.div (v4 (ix2 p (1 : Fin 3))) (SphHarm.len (v4 (ix2 p (0 : Fin 3))) (v4 (ix2 p (1 : Fin 3))) (v4 (ix2 p (2 : Fin 3)))) := by
  show k0_pay3 v4 (ix2 p (0 : Fin 1)) * k0_pay5 v4 (ix2 p (0 : Fin 1)) = _
  rw [y_at, recip_at, SphHarm.mul_recip _ _ (SphHarm.len_ne_zero _ _ _)]
theorem w_at : k0_pay8 v4 (ix2 p (0 : Fin 1))
    = Ideal.div (v4 (ix2 p (2 : Fin 3))) (SphHarm.len (v4 (ix2 p (0 : Fin 3))) (v4 (ix2 p (1 : Fin 3))) (v4 (ix2 p (2 : Fin 3)))) := by
  show k0_pay4 v4 (ix2 p (0 : Fin 1)) * k0_pay5 v4 (ix2 p (0 : Fin 1)) = _
  rw [z_at, recip_at, SphHarm.mul_recip _ _ (SphHarm.len_ne_zero _ _ _)]

/-- Column `q` at row `p` is harmonic `q` of the normalised entries: the columns are those polynomials, pointwise. -/
theorem cols_at (q : Fin 16) : cols v4 q (ix2 p (0 : Fin 1))
    = SphHarm.harm (k0_pay6 v4 (ix2 p (0 : Fin 1))) (k0_pay7 v4 (ix2 p (0 : Fin 1))) (k0_pay8 v4 (ix2 p (0 : Fin 1))) q := by
  fin_cases q <;> rfl

/-- What a trip stores, at row `p` and column `q`: harmonic `q` of the direction of the loaded row `p`. -/
theorem chunk_apply (q : Fin 16) : chunk v4 (ix2 p q)
    = SphHarm.row (v4 (ix2 p (0 : Fin 3))) (v4 (ix2 p (1 : Fin 3))) (v4 (ix2 p (2 : Fin 3))) q := by
  rw [chunk_eq]
  refine (ColumnBlocks.concat16_cols_apply (R := 256) (cols v4) _ p q).trans ?_
  rw [cols_at, u_at, v_at, w_at]
  rfl

end AtIdeal

end Cert.KernelIdeal.Harm

end
-- ==== Proof.KernelTrips.lean ====
/-
  The block one grid point leaves in the output's staging buffer.

  The kernel's loop makes 32 trips over the staged 8192×3 block; trip `k` loads rows 256k … 256k + 255 and stores
  the sixteen harmonics of those rows into the same rows of the 8192×16 block (`trip_piece`). Every stored piece is
  therefore a restriction of ONE function of the block index, `blockTable`: entry (y, q) is harmonic `q` of the
  direction of staged row `y` (`piece_restricts`, then by induction over the trips `pieces_restrict`). The pieces
  tile the block, so the block read back is that function (`block_apply`).
-/
import proofs.«171671_j1151051235358_2_alg».proof.Proof.Gen.KernelIdeal.Frame
import proofs.«171671_j1151051235358_2_alg».proof.Proof.KernelChunk
import Idealize.ShloMosaic.Lib.Pipeline.Value
import Idealize.ShloMosaic.Lib.Tactic

set_option maxRecDepth 16384

noncomputable section

namespace Cert.KernelIdeal.Harm

open Cert.KernelIdeal Cert.KernelIdeal.Gen Idealize.ShloMosaic Idealize.ShloMosaic.TcCoe Idealize.ShloMosaic.ValueIdx
open Idealize.ShloMosaic.Tactic Idealize.SL.Sem

variable {F : FTy → Type} [FloatOps F]

/-- Trip `k` writes one piece: the rows at the trip's offset of the output block receive `chunk` of the rows loaded at
    the trip's offset of the input block. -/
theorem trip_piece (𝒱 : Variants) (c : Dev nD) (bd : Option 𝒱.V) (i : grid0.Coords) (arg1 : Memref sig .tc .vmem S8192x3 .f32) (harg1 : arg1.IsWhole) (arg2 : Memref sig .tc .vmem S8192x16 .f32) (harg2 : arg2.IsWhole)
    (X : BufTy.Contents (Elt F) arg1.view.ty) (k : Fin k0_t1_loop.trips) :
    tripL_k0_t1 (F := F) 𝒱 c bd i arg1 harg1 arg2 harg2 X k
      = [⟨Rect.unit (s := S8192x16) (k0_off2 k) S256x16.size (k0_off2_inb k),
          chunk (View.readAt (Elt F) arg1.view (Rect.unit (s := S8192x3) (k0_off1 k) S256x3.size (k0_off1_inb k)).toLoadRect X)⟩] := by
  unfold tripL_k0_t1 trip_k0_t1
  dsimp only
  sl_unfold_run_names
  rfl

/-- The harmonics of the 8192 staged rows: entry (y, q) is harmonic `q` of the direction of row `y`. -/
def blockTable (x0 : Vec Ideal S8192x3 .f32) : S8192x16.Idx → EReal :=
  fun y => SphHarm.row (x0 (ix2 ⟨(y 0).val, idx2_lt0 y⟩ (0 : Fin 3))) (x0 (ix2 ⟨(y 0).val, idx2_lt0 y⟩ (1 : Fin 3)))
    (x0 (ix2 ⟨(y 0).val, idx2_lt0 y⟩ (2 : Fin 3))) ⟨(y 1).val, idx2_lt1 y⟩

theorem blockTable_apply (x0 : Vec Ideal S8192x3 .f32) (y : Fin 8192) (q : Fin 16) :
    blockTable x0 (ix2 y q) = SphHarm.row (x0 (ix2 y (0 : Fin 3))) (x0 (ix2 y (1 : Fin 3))) (x0 (ix2 y (2 : Fin 3))) q := rfl

/-- A store of `chunk` of 256 rows loaded at row offset `o`, made at the same row offset (both at column 0), is the
    block table restricted to those rows. -/
theorem piece_restricts (x0 : Vec Ideal S8192x3 .f32) (o1 o2 : Fin 2 → Nat)
    (h1 : ∀ a, o1 a + S256x3.size a ≤ S8192x3.size a) (h2 : ∀ a, o2 a + S256x16.size a ≤ S8192x16.size a)
    (e0 : o1 0 = o2 0) (e1 : o1 1 = 0) (e2 : o2 1 = 0) (x : S256x16.Idx) :
    chunk (View.ld (Val := Elt Ideal) x0 (Rect.unit (s := S8192x3) o1 S256x3.size h1)) x
      = blockTable x0 ((Rect.unit (s := S8192x16) o2 S256x16.size h2).emb x) := by
  obtain ⟨p, q, rfl⟩ : ∃ (p : Fin 256) (q : Fin 16), x = ix2 p q := ⟨x 0, x 1, eq_ix2 x⟩
  have hlt : o2 0 + 1 * p.val < 8192 := by
    have := h2 0
    have hp := p.isLt
    change o2 0 + 256 ≤ 8192 at this
    omega
  have hemb : (Rect.unit (s := S8192x16) o2 S256x16.size h2).emb (ix2 p q) = ix2 (⟨o2 0 + 1 * p.val, hlt⟩ : Fin 8192) q := by
    funext a; apply Fin.ext
    match a with
    | ⟨0, _⟩ => rfl
    | ⟨1, _⟩ => show o2 1 + 1 * q.val = q.val; omega
  have hrow : ∀ cc : Fin 3, View.ld (Val := Elt Ideal) x0 (Rect.unit (s := S8192x3) o1 S256x3.size h1) (ix2 p cc)
      = x0 (ix2 (⟨o2 0 + 1 * p.val, hlt⟩ : Fin 8192) cc) := fun cc =>
    congrArg x0 (funext fun a => Fin.ext (by
      match a with
      | ⟨0, _⟩ => show o1 0 + 1 * p.val = o2 0 + 1 * p.val; omega
      | ⟨1, _⟩ => show o1 1 + 1 * cc.val = cc.val; omega))
  rw [chunk_apply, hemb, blockTable_apply, hrow 0, hrow 1, hrow 2]

/-- Every piece the trips before `n` wrote is the block table restricted to its rectangle. -/
theorem pieces_restrict (c : Dev nD) (i : grid0.Coords) (arg1 : Memref sig .tc .vmem S8192x3 .f32) (harg1 : arg1.IsWhole) (arg2 : Memref sig .tc .vmem S8192x16 .f32) (harg2 : arg2.IsWhole)
    (x0 : Vec Ideal S8192x3 .f32) :
    ∀ n : Nat, n ≤ k0_t1_loop.trips →
      ∀ pc ∈ pb_k0_t1 (F := Ideal) Variants.none c none i arg1 harg1 arg2 harg2 (harg1.unread x0) n,
        ∀ x : pc.1.shape.Idx, pc.2 x = blockTable x0 (pc.1.emb x)
  | 0, _ => fun pc hpc => absurd hpc List.not_mem_nil
  | n + 1, hn => fun pc hpc => by
    have hk : n < k0_t1_loop.trips := hn
    have e := pb_k0_t1_succ (F := Ideal) Variants.none c none i arg1 harg1 arg2 harg2 (harg1.unread x0) ⟨n, hk⟩
    rw [trip_piece] at e
    change pb_k0_t1 (F := Ideal) Variants.none c none i arg1 harg1 arg2 harg2 (harg1.unread x0) (n + 1) = _ at e
    rw [e] at hpc
    rcases List.mem_append.mp hpc with h | h
    · obtain rfl := List.mem_singleton.mp h
      intro x
      show chunk (View.readAt (Elt Ideal) arg1.view (Rect.unit (s := S8192x3) (k0_off1 ⟨n, hk⟩) S256x3.size (k0_off1_inb ⟨n, hk⟩)).toLoadRect
        (harg1.unread x0)) x = _
      rw [View.readAt_eq_ld, harg1.read_unread]
      exact piece_restricts x0 (k0_off1 ⟨n, hk⟩) (k0_off2 ⟨n, hk⟩) (k0_off1_inb ⟨n, hk⟩) (k0_off2_inb ⟨n, hk⟩)
        (by rw [k0_off1_eq, k0_off2_eq]) (by rw [k0_off1_eq]; rfl) (by rw [k0_off2_eq]; rfl) x
    · exact pieces_restrict c i arg1 harg1 arg2 harg2 x0 n (Nat.le_of_lt hk) pc h

/-- The pieces the whole run wrote are the pieces of all the trips. -/
theorem run_pieces (c : Dev nD) (i : grid0.Coords) (arg1 : Memref sig .tc .vmem S8192x3 .f32) (harg1 : arg1.IsWhole) (arg2 : Memref sig .tc .vmem S8192x16 .f32) (harg2 : arg2.IsWhole)
    (x0 : Vec F S8192x3 .f32) :
    (kernelRun0_A (F := F) c i arg1 harg1 arg2 harg2 x0).1
      = pb_k0_t1 (F := F) Variants.none c none i arg1 harg1 arg2 harg2 (harg1.unread x0) k0_t1_loop.trips := by
  unfold kernelRun0_A
  rfl

/-- What the body leaves in the output's staging buffer: the harmonics of the staged rows. -/
theorem block_apply (c : Dev nD) (i : grid0.Coords) (arg1 : Memref sig .tc .vmem S8192x3 .f32) (harg1 : arg1.IsWhole) (arg2 : Memref sig .tc .vmem S8192x16 .f32) (harg2 : arg2.IsWhole)
    (x0 : Vec Ideal S8192x3 .f32) :
    out0_A_1 (F := Ideal) c i arg1 harg1 arg2 harg2 x0 = blockTable x0 := by
  funext y
  unfold out0_A_1
  rw [View.read_writes_junk_apply_eq_canon]
  refine View.canon_apply_of_pieces (blockTable x0) _ ?_ y (cover0_A_1 c i arg1 harg1 arg2 harg2 x0 y)
  rw [run_pieces]
  exact pieces_restrict c i arg1 harg1 arg2 harg2 x0 _ (Nat.le_refl _)

end Cert.KernelIdeal.Harm

end
-- ==== Proof.KernelTable.lean ====
/-
  From the blocks to the whole array.

  The grid has 512 points; point `t` stages rows 8192·t … 8192·t + 8191 of the argument and writes back the same
  rows of the result (the two index maps are the point's position, at column block 0). The block a point leaves is
  the harmonics of its staged rows, so what it writes back is the table of harmonics of the argument, restricted to
  its rows (`flushed_eq`). Row `i` lies in the block of point `i / 8192`, so the blocks cover the array and the result
  array ends as the table (`final`).
-/
import proofs.«171671_j1151051235358_2_alg».proof.Proof.Gen.KernelIdeal.Value
import proofs.«171671_j1151051235358_2_alg».proof.Proof.KernelTrips

set_option maxRecDepth 16384

noncomputable section

namespace Cert.KernelIdeal.Harm

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the grid: both windows' row-block index is the point's position, their
    column-block index zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block of point `t` is rows 8192·t … of the argument. -/
theorem iblk_apply (c : Dev nD) (t : Fin cfg0.N) (p : Fin 8192) (cc : Fin 3) (hp : 8192 * t.val + p.val < 4194304) :
    (iblk m c 0 t : Vec Ideal S8192x3 .f32) (ix2 p cc)
      = (V m c main_arg0 : S4194304x3.Idx → EReal) (ix2 (⟨8192 * t.val + p.val, hp⟩ : Fin 4194304) cc) := by
  obtain ⟨e0, e1, -, -⟩ := idx_facts t
  unfold iblk
  rw [View.read_apply]
  show V m c main_arg0 _ = V m c main_arg0 _
  congr 1
  funext a
  apply Fin.ext
  match a with
  | ⟨0, _⟩ => show win0_0.index t 0 * 8192 + 1 * p.val = 8192 * t.val + p.val; rw [e0]; omega
  | ⟨1, _⟩ => show win0_0.index t 1 * 3 + 1 * cc.val = cc.val; rw [e1]; omega

/-- What point `t` writes back is its rows of the table of harmonics of the argument. -/
theorem flushed_eq (c : Dev nD) (t : Fin cfg0.N) :
    (dats m 0 c).flushed 1 t = ((cfg0.win 1).blk t).view.read (Elt Ideal) (SphHarm.table (V m c main_arg0)) := by
  rw [flushed1_A, block_apply]
  obtain ⟨-, -, e2, e3⟩ := idx_facts t
  have ht : t.val < 512 := lt_of_lt_of_eq t.isLt N_0
  funext j
  obtain ⟨p, q, rfl⟩ : ∃ (p : Fin 8192) (q : Fin 16), j = ix2 p q := ⟨j 0, j 1, eq_ix2 j⟩
  have hp : 8192 * t.val + p.val < 4194304 := by have := p.isLt; omega
  have hemb : ((cfg0.win 1).blk t).view.emb (ix2 p q) = ix2 (⟨8192 * t.val + p.val, hp⟩ : Fin 4194304) q := by
    funext a
    apply Fin.ext
    match a with
    | ⟨0, _⟩ => show win0_1.index t 0 * 8192 + 1 * p.val = 8192 * t.val + p.val; rw [e2]; omega
    | ⟨1, _⟩ => show win0_1.index t 1 * 16 + 1 * q.val = q.val; rw [e3]; omega
  show blockTable (iblk m c 0 t) (ix2 p q)
    = SphHarm.table (V m c main_arg0) (((cfg0.win 1).blk t).view.emb (ix2 p q))
  rw [hemb, SphHarm.table_apply, blockTable_apply, iblk_apply m c t p 0 hp, iblk_apply m c t p 1 hp,
    iblk_apply m c t p 2 hp]

/-- An index of the result is in point `t`'s block iff each coordinate is in the block's range on its axis. -/
theorem mem_blk (t : Fin cfg0.N) (i : S4194304x16.Idx) :
    i ∈ ((cfg0.win 1).blk t).view.set ↔ ∀ a : Fin 2, win0_1.index t a * S8192x16.size a ≤ (i a).val
      ∧ (i a).val < win0_1.index t a * S8192x16.size a + S8192x16.size a := by
  show i ∈ ((View.whole main_v0).slice (win0_1.rect t)).set ↔ _
  rw [View.set_slice_whole, Rect.mem_set_unit]
  exact Iff.rfl

/-- The result array after the run is the table of harmonics of the argument: row `i` is in the block of point
    `i / 8192`. -/
theorem final (c : Dev nD) : (dats m 0 c).arrAt 1 cfg0.N = SphHarm.table (V m c main_arg0) :=
  (dats m 0 c).arrAt_eq_of_cover 1 (SphHarm.table (V m c main_arg0)) (fun t _ => flushed_eq m c t) fun i => by
    have hi0 : (i 0).val < 4194304 := (i 0).isLt
    have hi1 : (i 1).val < 16 := (i 1).isLt
    have hN : cfg0.N = 512 := N_0
    have hlt : (i 0).val / 8192 < cfg0.N := by rw [hN]; omega
    obtain ⟨-, -, e2, e3⟩ := idx_facts ⟨(i 0).val / 8192, hlt⟩
    have e2' : win0_1.index ⟨(i 0).val / 8192, hlt⟩ (0 : Fin 2) = (i 0).val / 8192 := e2
    refine ⟨⟨(i 0).val / 8192, hlt⟩, flush0_1 _, ?_⟩
    rw [mem_blk]
    intro a
    match a with
    | ⟨0, _⟩ =>
      show win0_1.index ⟨(i 0).val / 8192, hlt⟩ (0 : Fin 2) * 8192 ≤ (i 0).val
        ∧ (i 0).val < win0_1.index ⟨(i 0).val / 8192, hlt⟩ (0 : Fin 2) * 8192 + 8192
      rw [e2']; omega
    | ⟨1, _⟩ =>
      show win0_1.index ⟨(i 0).val / 8192, hlt⟩ (1 : Fin 2) * 16 ≤ (i 1).val
        ∧ (i 1).val < win0_1.index ⟨(i 0).val / 8192, hlt⟩ (1 : Fin 2) * 16 + 16
      rw [e3]; omega

/-- The kernel's run, read: the result array is the table of harmonics of the argument, the argument unchanged. -/
theorem run : θ_run defs (onTc (τ := τ) (main (F := Ideal))) ⟨m, fun _ => 0, ρ⟩ fun r => ∀ c : Dev nD,
      r.2.mem ((c : Thread nD τ).loc main_v0) = SphHarm.table (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Harm

end
-- ==== Proof.RefRows.lean ====
/-
  The reference's first stages at one row: the clamped length and the normalised entries.

  The host program squares the entries, sums each row from zero, takes the square root, clamps it below, divides
  every entry of the row by that clamped length and cuts the three columns out as vectors over the rows. At row
  `r` the three vectors hold the row's entries over the row's clamped length (`u_at`, `v_at`, `w_at`). The row sum
  from zero is the three squares added in the order written (`zero_add`), nothing more.
-/
import proofs.«171671_j1151051235358_2_alg».proof.Proof.Gen.ReferenceIdeal.Read
import proofs.«171671_j1151051235358_2_alg».proof.Proof.Harmonics
import Idealize.ShloMosaic.Lib.ValueIdx

noncomputable section

namespace Cert.ReferenceIdeal.Harm

open Cert.ReferenceIdeal Cert.ReferenceIdeal.Gen Cert.ReferenceIdeal.Read Idealize.ShloMosaic Idealize.ShloMosaic.ValueIdx

variable (X : (⟨S4194304x3, .f32⟩ : BufTy).Contents (Elt Ideal)) (r : Fin 4194304)

/-! ## Where each layout stage reads its operand, at the indices of row `r` -/

theorem row_idx (k : Fin 3) : idx_main_v1 (ix1 r) k = ix2 r k :=
  funext fun a => match a with | ⟨0, _⟩ => rfl | ⟨1, _⟩ => rfl
theorem keep_idx : idx_main_v2 (ix2 r (0 : Fin 1)) = ix1 r :=
  funext fun a => match a with | ⟨0, _⟩ => rfl
theorem spread_idx (k : Fin 3) : idx_main_v6 (ix2 r k) = ix2 r (0 : Fin 1) :=
  funext fun a => match a with | ⟨0, _⟩ => rfl | ⟨1, _⟩ => rfl
theorem cut0_idx : idx_main_v8 (ix2 r (0 : Fin 1)) = ix2 r (0 : Fin 3) :=
  funext fun a => match a with | ⟨0, _⟩ => rfl | ⟨1, _⟩ => rfl
theorem cut1_idx : idx_main_v10 (ix2 r (0 : Fin 1)) = ix2 r (1 : Fin 3) :=
  funext fun a => match a with | ⟨0, _⟩ => rfl | ⟨1, _⟩ => rfl
theorem cut2_idx : idx_main_v12 (ix2 r (0 : Fin 1)) = ix2 r (2 : Fin 3) :=
  funext fun a => match a with | ⟨0, _⟩ => rfl | ⟨1, _⟩ => rfl
theorem flat0_idx : idx_main_v9 (ix1 r) = ix2 r (0 : Fin 1) :=
  funext fun a => match a with | ⟨0, _⟩ => Fin.ext (Nat.div_one _) | ⟨1, _⟩ => rfl
theorem flat1_idx : idx_main_v11 (ix1 r) = ix2 r (0 : Fin 1) :=
  funext fun a => match a with | ⟨0, _⟩ => Fin.ext (Nat.div_one _) | ⟨1, _⟩ => rfl
theorem flat2_idx : idx_main_v13 (ix1 r) = ix2 r (0 : Fin 1) :=
  funext fun a => match a with | ⟨0, _⟩ => Fin.ext (Nat.div_one _) | ⟨1, _⟩ => rfl

/-! ## The clamped length and the normalised entries of row `r` -/

/-- The host's row sum from zero is the three squares added in order. -/
theorem sumsq_at : val_main_v1 (F := Ideal) X (ix1 r)
    = X (ix2 r (0 : Fin 3)) * X (ix2 r (0 : Fin 3)) + X (ix2 r (1 : Fin 3)) * X (ix2 r (1 : Fin 3))
      + X (ix2 r (2 : Fin 3)) * X (ix2 r (2 : Fin 3)) := by
  rw [val_main_v1_apply, Fin.sum_univ_three, row_idx, row_idx, row_idx, val_main_cst_apply, val_main_v0_apply,
    val_main_v0_apply, val_main_v0_apply, Ideal.ofBits_def, Ideal.ofBits_zero_f32, zero_add]
  rfl

theorem len_at : val_main_v5 (F := Ideal) X (ix2 r (0 : Fin 1))
    = SphHarm.len (X (ix2 r (0 : Fin 3))) (X (ix2 r (1 : Fin 3))) (X (ix2 r (2 : Fin 3))) := by
  rw [val_main_v5_apply, val_main_v3_apply, val_main_v2_apply, keep_idx, sumsq_at, val_main_v4_apply,
    val_main_cst_0_apply]
  rfl

theorem quot_at (k : Fin 3) : val_main_v7 (F := Ideal) X (ix2 r k)
    = Ideal.div (X (ix2 r k)) (SphHarm.len (X (ix2 r (0 : Fin 3))) (X (ix2 r (1 : Fin 3))) (X (ix2 r (2 : Fin 3)))) := by
  rw [val_main_v7_apply, val_main_v6_apply, spread_idx, len_at]
  rfl

theorem u_at : val_main_v9 (F := Ideal) X (ix1 r)
    = Ideal.div (X (ix2 r (0 : Fin 3))) (SphHarm.len (X (ix2 r (0 : Fin 3))) (X (ix2 r (1 : Fin 3))) (X (ix2 r (2 : Fin 3)))) := by
  rw [val_main_v9_apply, flat0_idx, val_main_v8_apply, cut0_idx, quot_at]
theorem v_at : val_main_v11 (F := Ideal) X (ix1 r)
    = Ideal.div (X (ix2 r (1 : Fin 3))) (SphHarm.len (X (ix2 r (0 : Fin 3))) (X (ix2 r (1 : Fin 3))) (X (ix2 r (2 : Fin 3)))) := by
  rw [val_main_v11_apply, flat1_idx, val_main_v10_apply, cut1_idx, quot_at]
theorem w_at : val_main_v13 (F := Ideal) X (ix1 r)
    = Ideal.div (X (ix2 r (2 : Fin 3))) (SphHarm.len (X (ix2 r (0 : Fin 3))) (X (ix2 r (1 : Fin 3))) (X (ix2 r (2 : Fin 3)))) := by
  rw [val_main_v13_apply, flat2_idx, val_main_v12_apply, cut2_idx, quot_at]

end Cert.ReferenceIdeal.Harm

end
-- ==== Proof.RefColumns.lean ====
/-
  The reference's sixteen column stages at one row.

  Each column of the result is a vector over the rows, spread to an n×1 array: a float32 constant, or a polynomial
  of the three normalised columns with float32 coefficients spread over the rows. At row `r` column `k` holds the `k`-th harmonic
  polynomial of the three normalised columns' entries at that row: the stages are those polynomials, pointwise, and the
  float operations are the extended reals' own.
-/
import proofs.«171671_j1151051235358_2_alg».proof.Proof.Gen.ReferenceIdeal.Read
import proofs.«171671_j1151051235358_2_alg».proof.Proof.Harmonics
import Idealize.ShloMosaic.Lib.ValueIdx

noncomputable section

namespace Cert.ReferenceIdeal.Harm

open Cert.ReferenceIdeal Cert.ReferenceIdeal.Gen Cert.ReferenceIdeal.Read Idealize.ShloMosaic Idealize.ShloMosaic.ValueIdx

variable (X : (⟨S4194304x3, .f32⟩ : BufTy).Contents (Elt Ideal)) (r : Fin 4194304)

/-! ## Spreading a vector over the rows to an n×1 array reads the vector at the row -/

theorem col_idx83 : idx_main_v83 (ix2 r (0 : Fin 1)) = ix1 r :=
  funext fun a => match a with | ⟨0, _⟩ => rfl
theorem col_idx84 : idx_main_v84 (ix2 r (0 : Fin 1)) = ix1 r :=
  funext fun a => match a with | ⟨0, _⟩ => rfl
theorem col_idx85 : idx_main_v85 (ix2 r (0 : Fin 1)) = ix1 r :=
  funext fun a => match a with | ⟨0, _⟩ => rfl
theorem col_idx86 : idx_main_v86 (ix2 r (0 : Fin 1)) = ix1 r :=
  funext fun a => match a with | ⟨0, _⟩ => rfl
theorem col_idx87 : idx_main_v87 (ix2 r (0 : Fin 1)) = ix1 r :=
  funext fun a => match a with | ⟨0, _⟩ => rfl
theorem col_idx88 : idx_main_v88 (ix2 r (0 : Fin 1)) = ix1 r :=
  funext fun a => match a with | ⟨0, _⟩ => rfl
theorem col_idx89 : idx_main_v89 (ix2 r (0 : Fin 1)) = ix1 r :=
  funext fun a => match a with | ⟨0, _⟩ => rfl
theorem col_idx90 : idx_main_v90 (ix2 r (0 : Fin 1)) = ix1 r :=
  funext fun a => match a with | ⟨0, _⟩ => rfl
theorem col_idx91 : idx_main_v91 (ix2 r (0 : Fin 1)) = ix1 r :=
  funext fun a => match a with | ⟨0, _⟩ => rfl
theorem col_idx92 : idx_main_v92 (ix2 r (0 : Fin 1)) = ix1 r :=
  funext fun a => match a with | ⟨0, _⟩ => rfl
theorem col_idx93 : idx_main_v93 (ix2 r (0 : Fin 1)) = ix1 r :=
  funext fun a => match a with | ⟨0, _⟩ => rfl
theorem col_idx94 : idx_main_v94 (ix2 r (0 : Fin 1)) = ix1 r :=
  funext fun a => match a with | ⟨0, _⟩ => rfl
theorem col_idx95 : idx_main_v95 (ix2 r (0 : Fin 1)) = ix1 r :=
  funext fun a => match a with | ⟨0, _⟩ => rfl
theorem col_idx96 : idx_main_v96 (ix2 r (0 : Fin 1)) = ix1 r :=
  funext fun a => match a with | ⟨0, _⟩ => rfl
theorem col_idx97 : idx_main_v97 (ix2 r (0 : Fin 1)) = ix1 r :=
  funext fun a => match a with | ⟨0, _⟩ => rfl
theorem col_idx98 : idx_main_v98 (ix2 r (0 : Fin 1)) = ix1 r :=
  funext fun a => match a with | ⟨0, _⟩ => rfl

/-! ## The columns -/

local notation "W" => Ideal.ofBits FTy.f32

/-- Degree 0: the constant one. -/
theorem col0_at : val_main_v83 (F := Ideal) (ix2 r (0 : Fin 1))
    = W 0x3F800000#32 := by
  rw [val_main_v83_apply, col_idx83, val_main_v17_apply, val_main_cst_1_apply]
  simp only [Ideal.ofBits_def]

/-- Degree 1: a constant times the second normalised column. -/
theorem col1_at : val_main_v84 (F := Ideal) X (ix2 r (0 : Fin 1))
    = W 0x3FDDB3D7#32 * val_main_v11 (F := Ideal) X (ix1 r) := by
  rw [val_main_v84_apply, col_idx84, val_main_v19_apply, val_main_v18_apply, val_main_cst_2_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 1: a constant times the third normalised column. -/
theorem col2_at : val_main_v85 (F := Ideal) X (ix2 r (0 : Fin 1))
    = W 0x3FDDB3D7#32 * val_main_v13 (F := Ideal) X (ix1 r) := by
  rw [val_main_v85_apply, col_idx85, val_main_v21_apply, val_main_v20_apply, val_main_cst_3_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 1: a constant times the first normalised column. -/
theorem col3_at : val_main_v86 (F := Ideal) X (ix2 r (0 : Fin 1))
    = W 0x3FDDB3D7#32 * val_main_v9 (F := Ideal) X (ix1 r) := by
  rw [val_main_v86_apply, col_idx86, val_main_v23_apply, val_main_v22_apply, val_main_cst_4_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 2: constant · u · v. -/
theorem col4_at : val_main_v87 (F := Ideal) X (ix2 r (0 : Fin 1))
    = W 0x4077DEF6#32 * val_main_v9 (F := Ideal) X (ix1 r) * val_main_v11 (F := Ideal) X (ix1 r) := by
  rw [val_main_v87_apply, col_idx87, val_main_v26_apply, val_main_v25_apply, val_main_v24_apply, val_main_cst_5_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 2: constant · v · w. -/
theorem col5_at : val_main_v88 (F := Ideal) X (ix2 r (0 : Fin 1))
    = W 0x4077DEF6#32 * val_main_v11 (F := Ideal) X (ix1 r) * val_main_v13 (F := Ideal) X (ix1 r) := by
  rw [val_main_v88_apply, col_idx88, val_main_v29_apply, val_main_v28_apply, val_main_v27_apply, val_main_cst_6_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 2: constant · (3w² − 1). -/
theorem col6_at : val_main_v89 (F := Ideal) X (ix2 r (0 : Fin 1))
    = W 0x3F8F1BBD#32 * (W 0x40400000#32 * (val_main_v13 (F := Ideal) X (ix1 r) * val_main_v13 (F := Ideal) X (ix1 r)) - W 0x3F800000#32) := by
  rw [val_main_v89_apply, col_idx89, val_main_v35_apply, val_main_v34_apply, val_main_cst_9_apply, val_main_v33_apply, val_main_v31_apply, val_main_v30_apply, val_main_cst_7_apply, val_main_v16_apply, val_main_v32_apply, val_main_cst_8_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 2: constant · u · w. -/
theorem col7_at : val_main_v90 (F := Ideal) X (ix2 r (0 : Fin 1))
    = W 0x4077DEF6#32 * val_main_v9 (F := Ideal) X (ix1 r) * val_main_v13 (F := Ideal) X (ix1 r) := by
  rw [val_main_v90_apply, col_idx90, val_main_v38_apply, val_main_v37_apply, val_main_v36_apply, val_main_cst_10_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 2: constant · (u² − v²). -/
theorem col8_at : val_main_v91 (F := Ideal) X (ix2 r (0 : Fin 1))
    = W 0x3FF7DEF6#32 * (val_main_v9 (F := Ideal) X (ix1 r) * val_main_v9 (F := Ideal) X (ix1 r) - val_main_v11 (F := Ideal) X (ix1 r) * val_main_v11 (F := Ideal) X (ix1 r)) := by
  rw [val_main_v91_apply, col_idx91, val_main_v41_apply, val_main_v40_apply, val_main_cst_11_apply, val_main_v39_apply, val_main_v14_apply, val_main_v15_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · v · (3u² − v²). -/
theorem col9_at : val_main_v92 (F := Ideal) X (ix2 r (0 : Fin 1))
    = W 0x4005DD98#32 * val_main_v11 (F := Ideal) X (ix1 r) * (W 0x40400000#32 * (val_main_v9 (F := Ideal) X (ix1 r) * val_main_v9 (F := Ideal) X (ix1 r)) - val_main_v11 (F := Ideal) X (ix1 r) * val_main_v11 (F := Ideal) X (ix1 r)) := by
  rw [val_main_v92_apply, col_idx92, val_main_v47_apply, val_main_v43_apply, val_main_v42_apply, val_main_cst_12_apply, val_main_v46_apply, val_main_v45_apply, val_main_v44_apply, val_main_cst_13_apply, val_main_v14_apply, val_main_v15_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · u · v · w. -/
theorem col10_at : val_main_v93 (F := Ideal) X (ix2 r (0 : Fin 1))
    = W 0x4123F383#32 * val_main_v9 (F := Ideal) X (ix1 r) * val_main_v11 (F := Ideal) X (ix1 r) * val_main_v13 (F := Ideal) X (ix1 r) := by
  rw [val_main_v93_apply, col_idx93, val_main_v51_apply, val_main_v50_apply, val_main_v49_apply, val_main_v48_apply, val_main_cst_14_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · v · (5w² − 1). -/
theorem col11_at : val_main_v94 (F := Ideal) X (ix2 r (0 : Fin 1))
    = W 0x3FCF623A#32 * val_main_v11 (F := Ideal) X (ix1 r) * (W 0x40A00000#32 * (val_main_v13 (F := Ideal) X (ix1 r) * val_main_v13 (F := Ideal) X (ix1 r)) - W 0x3F800000#32) := by
  rw [val_main_v94_apply, col_idx94, val_main_v58_apply, val_main_v53_apply, val_main_v52_apply, val_main_cst_15_apply, val_main_v57_apply, val_main_v55_apply, val_main_v54_apply, val_main_cst_16_apply, val_main_v16_apply, val_main_v56_apply, val_main_cst_17_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · w · (5w² − 3). -/
theorem col12_at : val_main_v95 (F := Ideal) X (ix2 r (0 : Fin 1))
    = W 0x3FA953FD#32 * val_main_v13 (F := Ideal) X (ix1 r) * (W 0x40A00000#32 * (val_main_v13 (F := Ideal) X (ix1 r) * val_main_v13 (F := Ideal) X (ix1 r)) - W 0x40400000#32) := by
  rw [val_main_v95_apply, col_idx95, val_main_v65_apply, val_main_v60_apply, val_main_v59_apply, val_main_cst_18_apply, val_main_v64_apply, val_main_v62_apply, val_main_v61_apply, val_main_cst_19_apply, val_main_v16_apply, val_main_v63_apply, val_main_cst_20_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · u · (5w² − 1). -/
theorem col13_at : val_main_v96 (F := Ideal) X (ix2 r (0 : Fin 1))
    = W 0x3FCF623A#32 * val_main_v9 (F := Ideal) X (ix1 r) * (W 0x40A00000#32 * (val_main_v13 (F := Ideal) X (ix1 r) * val_main_v13 (F := Ideal) X (ix1 r)) - W 0x3F800000#32) := by
  rw [val_main_v96_apply, col_idx96, val_main_v72_apply, val_main_v67_apply, val_main_v66_apply, val_main_cst_21_apply, val_main_v71_apply, val_main_v69_apply, val_main_v68_apply, val_main_cst_22_apply, val_main_v16_apply, val_main_v70_apply, val_main_cst_23_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · w · (u² − v²). -/
theorem col14_at : val_main_v97 (F := Ideal) X (ix2 r (0 : Fin 1))
    = W 0x40A3F383#32 * val_main_v13 (F := Ideal) X (ix1 r) * (val_main_v9 (F := Ideal) X (ix1 r) * val_main_v9 (F := Ideal) X (ix1 r) - val_main_v11 (F := Ideal) X (ix1 r) * val_main_v11 (F := Ideal) X (ix1 r)) := by
  rw [val_main_v97_apply, col_idx97, val_main_v76_apply, val_main_v74_apply, val_main_v73_apply, val_main_cst_24_apply, val_main_v75_apply, val_main_v14_apply, val_main_v15_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

/-- Degree 3: constant · u · (u² − 3v²). -/
theorem col15_at : val_main_v98 (F := Ideal) X (ix2 r (0 : Fin 1))
    = W 0x4005DD98#32 * val_main_v9 (F := Ideal) X (ix1 r) * (val_main_v9 (F := Ideal) X (ix1 r) * val_main_v9 (F := Ideal) X (ix1 r) - W 0x40400000#32 * (val_main_v11 (F := Ideal) X (ix1 r) * val_main_v11 (F := Ideal) X (ix1 r))) := by
  rw [val_main_v98_apply, col_idx98, val_main_v82_apply, val_main_v78_apply, val_main_v77_apply, val_main_cst_25_apply, val_main_v81_apply, val_main_v14_apply, val_main_v80_apply, val_main_v79_apply, val_main_cst_26_apply, val_main_v15_apply]
  generalize val_main_v9 (F := Ideal) X (ix1 r) = U
  generalize val_main_v11 (F := Ideal) X (ix1 r) = V
  generalize val_main_v13 (F := Ideal) X (ix1 r) = W'
  simp only [Ideal.mulf_def, Ideal.subf_def, Ideal.ofBits_def]

end Cert.ReferenceIdeal.Harm

end
-- ==== Proof.RefTable.lean ====
/-
  The reference's result is the table of harmonics.

  The result lays the sixteen column stages side by side. Read at row `r` and column `q` it is the `q`-th of the
  sixteen values the columns hold at row `r`, which are the harmonics of the row's normalised entries, which are
  the row's entries over its clamped length.
-/
import proofs.«171671_j1151051235358_2_alg».proof.Proof.RefRows
import proofs.«171671_j1151051235358_2_alg».proof.Proof.RefColumns
import proofs.«171671_j1151051235358_2_alg».proof.Proof.LibColumnBlocks

noncomputable section

namespace Cert.ReferenceIdeal.Harm

open Cert.ReferenceIdeal Cert.ReferenceIdeal.Gen Cert.ReferenceIdeal.Read Idealize.ShloMosaic Idealize.ShloMosaic.ValueIdx

/-- The reference's result is the table. -/
theorem ref_eq (X : (⟨S4194304x3, .f32⟩ : BufTy).Contents (Elt Ideal)) :
    val_main_v99 (F := Ideal) X = SphHarm.table X := by
  funext i
  obtain ⟨r, q, rfl⟩ : ∃ (r : Fin 4194304) (q : Fin 16), i = ix2 r q := ⟨i 0, i 1, eq_ix2 i⟩
  unfold val_main_v99
  rw [ColumnBlocks.concat16_vals_apply, col0_at r, col1_at X r, col2_at X r, col3_at X r, col4_at X r, col5_at X r, col6_at X r, col7_at X r, col8_at X r, col9_at X r, col10_at X r, col11_at X r, col12_at X r, col13_at X r, col14_at X r, col15_at X r,
    u_at X r, v_at X r, w_at X r, SphHarm.table_apply]
  unfold SphHarm.row SphHarm.harm
  with_reducible rfl

end Cert.ReferenceIdeal.Harm

end
-- ==== Proof.lean ====
/-
  The kernel and its reference compute one table: for every row of the 4194304×3 argument, the sixteen real
  spherical harmonics of degree 0 to 3 of the row's direction (`SphHarm.table`).

  Both first normalise a row by its length √(a² + b² + c²), clamped below at a positive constant. The kernel
  multiplies each entry by the reciprocal of the clamped length, the reference divides each entry by it; on the
  extended reals both are the entry times the inverse, because the clamped length is never zero. The kernel adds
  the three squares directly, the reference sums the row from zero: the same sum. The sixteen polynomials in the
  normalised entries carry the same float32 coefficients, word for word, on both sides. No finiteness of the
  argument is used.

  The kernel works block by block: each of 512 grid points stages 8192 rows and a loop of 32 trips fills the
  8192×16 output block 256 rows at a time; the blocks tile the result. The reference forms each of the sixteen
  columns as a vector over all rows and lays them side by side.
-/
import proofs.«171671_j1151051235358_2_alg».proof.Defs
import proofs.«171671_j1151051235358_2_alg».proof.Proof.Gen.Kernel
import proofs.«171671_j1151051235358_2_alg».proof.Proof.Gen.Kernel.Skeleton
import proofs.«171671_j1151051235358_2_alg».proof.Proof.Gen.Kernel.Loops
import proofs.«171671_j1151051235358_2_alg».proof.Proof.Gen.Kernel.Launch
import proofs.«171671_j1151051235358_2_alg».proof.Proof.Gen.Kernel.Points
import proofs.«171671_j1151051235358_2_alg».proof.Proof.Gen.Kernel.Frame
import proofs.«171671_j1151051235358_2_alg».proof.Proof.Gen.KernelIdeal
import proofs.«171671_j1151051235358_2_alg».proof.Proof.Gen.KernelIdeal.Skeleton
import proofs.«171671_j1151051235358_2_alg».proof.Proof.Gen.KernelIdeal.Loops
import proofs.«171671_j1151051235358_2_alg».proof.Proof.Gen.KernelIdeal.Launch
import proofs.«171671_j1151051235358_2_alg».proof.Proof.Gen.KernelIdeal.Points
import proofs.«171671_j1151051235358_2_alg».proof.Proof.Gen.KernelIdeal.Frame
import proofs.«171671_j1151051235358_2_alg».proof.Proof.Gen.ReferenceIdeal
import proofs.«171671_j1151051235358_2_alg».proof.Proof.Gen.Pre_finite_inputs
import proofs.«171671_j1151051235358_2_alg».proof.Proof.Gen.KernelIdeal.Value
import proofs.«171671_j1151051235358_2_alg».proof.Proof.Gen.ReferenceIdeal.Run
import proofs.«171671_j1151051235358_2_alg».proof.Proof.Gen.ReferenceIdeal.Read
import Idealize.ShloMosaic.Adequacy
import Idealize.ShloMosaic.Init

import proofs.«171671_j1151051235358_2_alg».proof.Proof.KernelTable
import proofs.«171671_j1151051235358_2_alg».proof.Proof.RefTable

noncomputable section

namespace Cert.Proof

open Idealize.ShloMosaic Idealize.SL.Sem Cert.Kernel

/-- The three programs run to the end with their argument unchanged; the idealized kernel is the kernel's own text
    read on the extended reals (nothing was rewritten); and the idealized kernel and the idealized reference, from
    memories that agree on the argument, both end with the table of harmonics of the argument as their result. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2)
      (Cert.ReferenceIdeal.Value.run (F := Ideal) m ρ)
  · intro m ρ m' ρ' _ hagree
    refine ⟨_, Cert.KernelIdeal.Harm.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v99_eq, Cert.ReferenceIdeal.Harm.ref_eq, hagree c]⟩

end Cert.Proof

end
